-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1250000 32) (main_arg2 : IVec S1250000 32) (main_arg3 : FVec F S192x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S192x64 .f32 := Host.absf main_arg3
  let main_cst_0 : FVec F S_ .f32 := constant S_ .f32 0x7F800000#32
  let main_v5 : FVec F S192x64 .f32 := broadcastInDim S192x64 ![] bcast_S_S192x64 main_cst_0
  let main_v6 : IVec S192x64 1 := cmpf .olt main_v4 main_v5
  let main_c_1 : IVec S_ 1 := constantI S_ 1 1#1
  let main_v7 : IVec S_ 1 := (fun x v => Host.reduce IntOp.andi x v reducesTo_S192x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S5000x64 : Shape := ⟨2, ![5000, 64]⟩
abbrev S5000x1 : Shape := ⟨2, ![5000, 1]⟩
abbrev S1250000x64 : Shape := ⟨2, ![1250000, 64]⟩
abbrev S64x64 : Shape := ⟨2, ![64, 64]⟩
abbrev S1x64 : Shape := ⟨2, ![1, 64]⟩

abbrev nBuf : Space → Nat
  | .hbm => 49
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S192x64, .f32⟩
  | .hbm, ⟨4, _⟩ => ⟨S64, .f32⟩
  | .hbm, ⟨5, _⟩ => ⟨S_, .f32⟩
  | .hbm, ⟨6, _⟩ => ⟨S1250000, .f32⟩
  | .hbm, ⟨7, _⟩ => ⟨S_, .f32⟩
  | .hbm, ⟨8, _⟩ => ⟨S100000, .f32⟩
  | .hbm, ⟨9, _⟩ => ⟨S1250000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1250000, .i32⟩
  | .hbm, ⟨22, _⟩ => ⟨S1250000, .i1⟩
  | .hbm, ⟨23, _⟩ => ⟨S_, .i32⟩
  | .hbm, ⟨24, _⟩ => ⟨S1250000, .i32⟩
  | .hbm, ⟨25, _⟩ => ⟨S1250000, .i32⟩
  | .hbm, ⟨26, _⟩ => ⟨S1250000, .i32⟩
  | .hbm, ⟨27, _⟩ => ⟨S1250000x1, .i32⟩
  | .hbm, ⟨28, _⟩ => ⟨S1250000x64, .f32⟩
  | .hbm, ⟨29, _⟩ => ⟨S_, .f32⟩
  | .hbm, ⟨30, _⟩ => ⟨S100000x64, .f32⟩
  | .hbm, ⟨31, _⟩ => ⟨S1250000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000x64, .f32⟩
  | .hbm, ⟨44, _⟩ => ⟨S_, .f32⟩
  | .hbm, ⟨45, _⟩ => ⟨S100000x64, .f32⟩
  | .hbm, ⟨46, _⟩ => ⟨S1250000x1, .i32⟩
  | .hbm, ⟨47, _⟩ => ⟨S100000x64, .f32⟩
  | .hbm, ⟨48, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S192x64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S192x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S5000x64_S5000x64 : S5000x64.ShapeCasts S5000x64
  inb_S192x64_S192x64_0_0 : ∀ a, (![0, 0] : Fin 2 → Nat) a + S192x64.size a ≤ S192x64.size a
  h_S192x64 : 0 < S192x64.numel
  slices_S192x64_o0_0_S64x64 : S192x64.Slices ![0, 0] S64x64
  slices_S192x64_o64_0_S64x64 : S192x64.Slices ![64, 0] S64x64
  slices_S192x64_o128_0_S64x64 : S192x64.Slices ![128, 0] S64x64
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S192x64.size a ≤ S192x64.size a
  hwx2_4 : ∀ i : grid2.Coords, EltTy.bits .f32 = 32 ∨ (Rect.block (s := S192x64) S192x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S192x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S100000x192 : Shape := ⟨2, ![100000, 192]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S192x64, .f32⟩
  | .hbm, ⟨4, _⟩ => ⟨S64, .f32⟩
  | .hbm, ⟨5, _⟩ => ⟨S_, .f32⟩
  | .hbm, ⟨6, _⟩ => ⟨S1250000, .f32⟩
  | .hbm, ⟨7, _⟩ => ⟨S_, .f32⟩
  | .hbm, ⟨8, _⟩ => ⟨S100000, .f32⟩
  | .hbm, ⟨9, _⟩ => ⟨S1250000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S_, .f32⟩
  | .hbm, ⟨31, _⟩ => ⟨S100000x64, .f32⟩
  | .hbm, ⟨32, _⟩ => ⟨S1250000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S_, .f32⟩
  | .hbm, ⟨55, _⟩ => ⟨S100000x64, .f32⟩
  | .hbm, ⟨56, _⟩ => ⟨S1250000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x192, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x192_S192x64_S100000x64_1_0_0_1_n_n_wf : DotDims.WF S100000x192 S192x64 S100000x64 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.KernelRun.lean ====
/-
  The kernel program's run with its result array kept.

  The program is eight segments: three stretches of host operations, the first region, a stretch, the second region, a
  stretch, the third region. Every weakly fair execution runs them in order; at the end every unscoped buffer holds the
  last boundary's contents. Read at the result buffer this gives the result array; read at the five argument buffers
  it gives the arguments as launched.
-/
import proofs.«132921_j46153718563236_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v30) = W8 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v30 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.RunValue

end
-- ==== Proof.LibTyped.lean ====
/-
  Typed buffer references: moving contents to a buffer's own type and back is the identity.

  A module-local function's operations are stated over references that carry the type of the value they hold; the
  operation's function is moved to the buffer's own type along the equation between the two. Composed, the two moves
  cancel.
-/
import Idealize.ShloMosaic.Lib.StableHlo

noncomputable section

namespace Cert.LibTyped

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, rfl, _, _⟩ := x
  rfl

/-- Contents moved to the value's type and back are the contents. -/
theorem toBuf_ofBuf (x : TRef sig T) (v : x.ref.ty.Contents Val) : x.toBuf (x.ofBuf v) = v := by
  obtain ⟨r, rfl, _, _⟩ := x
  rfl

end Cert.LibTyped

end
-- ==== Proof.HostTerms.lean ====
/-
  The two computations the kernel program leaves to host operations, as functions of their inputs, and the reference's
  corresponding stages.

  `nodeFactor dst`: count, for every node, the edges that end there (a scatter-add of ones along the destinations into
  zeros), clamp the count below at one, raise it to the power -1/2, and keep the result as one column.

  `aggregate y src dst`: gather the rows of `y` at the edges' sources (a negative index counted from the end), and
  scatter-add them along the destinations into zeros.

  Both programs perform these by the same operations with the same dimension numbers; the scatter and gather are never
  opened, only applied to equal arguments.
-/
import proofs.«132921_j46153718563236_1_alg».proof.Proof.Gen.KernelIdeal.Frame
import proofs.«132921_j46153718563236_1_alg».proof.Proof.Gen.ReferenceIdeal.Read
import proofs.«132921_j46153718563236_1_alg».proof.Proof.LibTyped
import Idealize.ShloMosaic.Lib.StableHlo.Run

set_option maxRecDepth 16384

noncomputable section

namespace Cert.KernelIdeal.HostTerms

open Idealize.ShloMosaic Idealize.ShloMosaic.TcCoe Idealize.SL.Sem Idealize.ShloMosaic.StableHlo
open Cert.KernelIdeal Cert.KernelIdeal.Gen

/-- The per-node factor, one column: (max(1, in-degree))^(-1/2). -/
def nodeFactor (dst : (⟨S1250000, .i32⟩ : BufTy).Contents (Elt Ideal)) : FVec Ideal S100000x1 .f32 :=
  broadcastInDim S100000x1 ![0] bcast_S100000_S100000x1_0
    (Host.powf (F := Ideal)
      (maximumf (F := Ideal) (broadcastInDim S100000 ![] bcast_S_S100000 (id (constant (F := Ideal) S_ .f32 0x3F800000#32)))
        (Host.scatterAdd (F := Ideal) scatter_S100000_S1250000x1_S1250000_n_0_0_1
          (broadcastInDim S100000 ![] bcast_S_S100000 (constant (F := Ideal) S_ .f32 0x00000000#32))
          (broadcastInDim S1250000x1 ![0] bcast_S1250000_S1250000x1_0 dst)
          (broadcastInDim S1250000 ![] bcast_S_S1250000 (constant (F := Ideal) S_ .f32 0x3F800000#32))))
      (broadcastInDim S100000 ![] bcast_S_S100000 (constant (F := Ideal) S_ .f32 0xBF000000#32)))

/-- The neighbourhood aggregation of the rows of `y`: gathered at the sources, summed at the destinations. -/
def aggregate (y : FVec Ideal S100000x64 .f32) (src dst : (⟨S1250000, .i32⟩ : BufTy).Contents (Elt Ideal)) :
    FVec Ideal S100000x64 .f32 :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (Host.gather gather_S100000x64_S1250000x1_S1250000x64_1_0_n_n_0_1_164 y
      (broadcastInDim S1250000x1 ![0] bcast_S1250000_S1250000x1_0
        (select (cmpi .slt src (broadcastInDim S1250000 ![] bcast_S_S1250000 (constantI S_ 32 0#32)))
          (addi src (broadcastInDim S1250000 ![] bcast_S_S1250000 (constantI S_ 32 100000#32))) src)))

/-! ## The reference's stages are these functions -/

open Cert.ReferenceIdeal.Read in
set_option maxHeartbeats 400000 in
/-- The reference's per-node factor (its %7). -/
theorem ref_nodeFactor (dst : (⟨S1250000, .i32⟩ : BufTy).Contents (Elt Ideal)) :
    val_main_v7 (F := Ideal) dst = nodeFactor dst := by
  unfold val_main_v7 val_main_v6 val_main_v5 val_main_cst_2 val_main_v4 val_main_call0_v1 val_main_call0_v0 val_main_cst_1
    val_main_v3 val_main_v2 val_main_v1 val_main_cst_0 val_main_v0 val_main_cst nodeFactor
  rfl

open Cert.ReferenceIdeal.Read in
set_option maxHeartbeats 400000 in
/-- The reference's first aggregate (its %19) is the aggregation of its scaled features (its %9). -/
theorem ref_aggregate0 (x0 : FVec Ideal S100000x64 .f32) (src dst : (⟨S1250000, .i32⟩ : BufTy).Contents (Elt Ideal)) :
    val_main_v19 (F := Ideal) x0 src dst = aggregate (val_main_v9 (F := Ideal) x0 dst) src dst := by
  unfold val_main_v19 val_main_v18 val_main_v17 val_main_cst_4 val_main_v16 val_main_v15 val_main_v14 val_main_v13
    val_main_v12 val_main_c_3 val_main_v11 val_main_v10 val_main_c aggregate
  rfl

open Cert.ReferenceIdeal.Read in
set_option maxHeartbeats 400000 in
/-- The reference's second aggregate (its %38) is the aggregation of its scaled first term (its %28). -/
theorem ref_aggregate1 (x0 : FVec Ideal S100000x64 .f32) (src dst : (⟨S1250000, .i32⟩ : BufTy).Contents (Elt Ideal)) :
    val_main_v38 (F := Ideal) x0 src dst = aggregate (val_main_v28 (F := Ideal) x0 src dst) src dst := by
  unfold val_main_v38 val_main_v37 val_main_v36 val_main_cst_9 val_main_v35 val_main_v34 val_main_v33 val_main_v32
    val_main_v31 val_main_c_8 val_main_v30 val_main_v29 val_main_c_7 aggregate
  rfl

/-! ## The kernel program's host stretches, from any contents `V` they start at -/

variable (V : Valuation τ sig (Elt Ideal))

/-- The first stretch leaves the in-degree counts in %3 … -/
theorem stretch0_v3 : StableHlo.after hostOps0 V (Proc.devRef .tc main_v3)
    = Host.scatterAdd (F := Ideal) scatter_S100000_S1250000x1_S1250000_n_0_0_1
        (broadcastInDim S100000 ![] bcast_S_S100000 (constant (F := Ideal) S_ .f32 0x00000000#32))
        (broadcastInDim S1250000x1 ![0] bcast_S1250000_S1250000x1_0 (V (Proc.devRef .tc main_arg2)))
        (broadcastInDim S1250000 ![] bcast_S_S1250000 (constant (F := Ideal) S_ .f32 0x3F800000#32)) := by
  after_results
/-- … and the constant one in the clamp's bound. -/
theorem stretch0_cst1 : StableHlo.after hostOps0 V (Proc.devRef .tc main_cst_1) = constant (F := Ideal) S_ .f32 0x3F800000#32 := by
  after_results
/-- The clamp (an outlined function: its values move through typed references, which cancel). -/
theorem stretch01_v4 : StableHlo.after hostOps0_1 V (Proc.devRef .tc main_v4)
    = maximumf (F := Ideal) (φ := .f32) (broadcastInDim S100000 ![] bcast_S_S100000 (id (V (Proc.devRef .tc main_cst_1) : FVec Ideal S_ .f32)))
        (V (Proc.devRef .tc main_v3) : FVec Ideal S100000 .f32) := by
  after_results
  simp only [Cert.LibTyped.ofBuf_toBuf]
  rfl
/-- The power and the column. -/
theorem stretch02_v7 : StableHlo.after hostOps0_2 V (Proc.devRef .tc main_v7)
    = broadcastInDim S100000x1 ![0] bcast_S100000_S100000x1_0
        (Host.powf (F := Ideal) (V (Proc.devRef .tc main_v4))
          (broadcastInDim S100000 ![] bcast_S_S100000 (constant (F := Ideal) S_ .f32 0xBF000000#32))) := by
  after_results

/-- The three leading stretches leave the per-node factor of the destinations in %7. -/
theorem lead_v7 : StableHlo.after hostOps0_2 (StableHlo.after hostOps0_1 (StableHlo.after hostOps0 V)) (Proc.devRef .tc main_v7) = nodeFactor (V (Proc.devRef .tc main_arg2)) := by
  rw [stretch02_v7, stretch01_v4, stretch0_cst1, stretch0_v3]
  rfl
theorem lead_keep_main_arg0 : StableHlo.after hostOps0_2 (StableHlo.after hostOps0_1 (StableHlo.after hostOps0 V)) (Proc.devRef .tc main_arg0) = V (Proc.devRef .tc main_arg0) := by after_results
theorem lead_keep_main_arg1 : StableHlo.after hostOps0_2 (StableHlo.after hostOps0_1 (StableHlo.after hostOps0 V)) (Proc.devRef .tc main_arg1) = V (Proc.devRef .tc main_arg1) := by after_results
theorem lead_keep_main_arg2 : StableHlo.after hostOps0_2 (StableHlo.after hostOps0_1 (StableHlo.after hostOps0 V)) (Proc.devRef .tc main_arg2) = V (Proc.devRef .tc main_arg2) := by after_results
theorem lead_keep_main_arg3 : StableHlo.after hostOps0_2 (StableHlo.after hostOps0_1 (StableHlo.after hostOps0 V)) (Proc.devRef .tc main_arg3) = V (Proc.devRef .tc main_arg3) := by after_results
theorem lead_keep_main_arg4 : StableHlo.after hostOps0_2 (StableHlo.after hostOps0_1 (StableHlo.after hostOps0 V)) (Proc.devRef .tc main_arg4) = V (Proc.devRef .tc main_arg4) := by after_results

/-- The stretch between the first two regions leaves the aggregation of %8 in %18. -/
theorem stretch1_v18 : StableHlo.after hostOps1 V (Proc.devRef .tc main_v18)
    = aggregate (V (Proc.devRef .tc main_v8)) (V (Proc.devRef .tc main_arg1)) (V (Proc.devRef .tc main_arg2)) := by
  after_results
  rfl
theorem stretch1_keep_main_arg0 : StableHlo.after hostOps1 V (Proc.devRef .tc main_arg0) = V (Proc.devRef .tc main_arg0) := by after_results
theorem stretch1_keep_main_arg1 : StableHlo.after hostOps1 V (Proc.devRef .tc main_arg1) = V (Proc.devRef .tc main_arg1) := by after_results
theorem stretch1_keep_main_arg2 : StableHlo.after hostOps1 V (Proc.devRef .tc main_arg2) = V (Proc.devRef .tc main_arg2) := by after_results
theorem stretch1_keep_main_arg3 : StableHlo.after hostOps1 V (Proc.devRef .tc main_arg3) = V (Proc.devRef .tc main_arg3) := by after_results
theorem stretch1_keep_main_arg4 : StableHlo.after hostOps1 V (Proc.devRef .tc main_arg4) = V (Proc.devRef .tc main_arg4) := by after_results
theorem stretch1_keep_main_v7 : StableHlo.after hostOps1 V (Proc.devRef .tc main_v7) = V (Proc.devRef .tc main_v7) := by after_results

/-- The stretch between the last two regions leaves the aggregation of %19#1 in %29. -/
theorem stretch2_v29 : StableHlo.after hostOps2 V (Proc.devRef .tc main_v29)
    = aggregate (V (Proc.devRef .tc main_v19_1)) (V (Proc.devRef .tc main_arg1)) (V (Proc.devRef .tc main_arg2)) := by
  after_results
  rfl
theorem stretch2_keep_main_arg0 : StableHlo.after hostOps2 V (Proc.devRef .tc main_arg0) = V (Proc.devRef .tc main_arg0) := by after_results
theorem stretch2_keep_main_arg1 : StableHlo.after hostOps2 V (Proc.devRef .tc main_arg1) = V (Proc.devRef .tc main_arg1) := by after_results
theorem stretch2_keep_main_arg2 : StableHlo.after hostOps2 V (Proc.devRef .tc main_arg2) = V (Proc.devRef .tc main_arg2) := by after_results
theorem stretch2_keep_main_arg3 : StableHlo.after hostOps2 V (Proc.devRef .tc main_arg3) = V (Proc.devRef .tc main_arg3) := by after_results
theorem stretch2_keep_main_arg4 : StableHlo.after hostOps2 V (Proc.devRef .tc main_arg4) = V (Proc.devRef .tc main_arg4) := by after_results
theorem stretch2_keep_main_v7 : StableHlo.after hostOps2 V (Proc.devRef .tc main_v7) = V (Proc.devRef .tc main_v7) := by after_results
theorem stretch2_keep_main_v19_0 : StableHlo.after hostOps2 V (Proc.devRef .tc main_v19_0) = V (Proc.devRef .tc main_v19_0) := by after_results

end Cert.KernelIdeal.HostTerms

end
-- ==== Proof.Spec.lean ====
/-
  The Chebyshev graph convolution of order three, stage by stage, as functions of whole arrays read index by index
  on the extended reals.

  With d the per-node factor (one column, one entry per node) and A(·) the neighbourhood aggregation (a gather of rows
  followed by a scatter-add, which both programs perform by the same host operations and which is never opened here):

    scaled x d        (p, q)  =  x(p, q) · d(p)
    cheb1 x a d       (p, q)  =  (-1) · (a(p, q) · d(p)) + x(p, q) · 0
    cheb1Scaled x a d (p, q)  =  cheb1 x a d (p, q) · d(p)
    cheb2 x0 x1 a d   (p, q)  =  ((-2) · (a(p, q) · d(p)) + x1(p, q) · 0) - x0(p, q)
    output            (p, q)  =  max( Σ_k x0(p,k)·w(k,q) + Σ_k x1(p,k)·w(64+k,q) + Σ_k x2(p,k)·w(128+k,q) + b(q), 0 )

  The float constants stay as the words the programs print; the same word stands on both sides and is never evaluated.
-/
import Idealize.ShloMosaic.PureOps.Ideal
import Idealize.ShloMosaic.Lib.ValueIdx

noncomputable section

open scoped BigOperators

namespace Cert.Cheb

open Idealize.ShloMosaic Idealize.ShloMosaic.ValueIdx

/-- Node features: one row per node, 64 columns. -/
abbrev SN64 : Shape := ⟨2, ![100000, 64]⟩
/-- One entry per node, kept as a column. -/
abbrev SN1 : Shape := ⟨2, ![100000, 1]⟩
/-- The weight table: three 64-row blocks, one per Chebyshev term. -/
abbrev SW : Shape := ⟨2, ![192, 64]⟩
/-- The bias vector. -/
abbrev SB : Shape := ⟨1, ![64]⟩

/-- Row `p`'s entry of a one-column array. -/
def colEntry (d : FVec Ideal SN1 .f32) (p : Fin 100000) : Ideal .f32 := d (ix2 p (0 : Fin 1))

/-- Every row scaled by its node's factor. -/
def scaled (x : FVec Ideal SN64 .f32) (d : FVec Ideal SN1 .f32) : FVec Ideal SN64 .f32 :=
  fun i => x i * colEntry d ⟨(i 0).val, idx2_lt0 i⟩

/-- The first Chebyshev term from the raw aggregate `a`. -/
def cheb1 (x a : FVec Ideal SN64 .f32) (d : FVec Ideal SN1 .f32) : FVec Ideal SN64 .f32 :=
  fun i => (FloatOps.ofBits .f32 0xBF800000#32 : Ideal .f32) * (a i * colEntry d ⟨(i 0).val, idx2_lt0 i⟩)
    + x i * (FloatOps.ofBits .f32 0x00000000#32 : Ideal .f32)

/-- The first Chebyshev term scaled again, ready for the next aggregation. -/
def cheb1Scaled (x a : FVec Ideal SN64 .f32) (d : FVec Ideal SN1 .f32) : FVec Ideal SN64 .f32 :=
  fun i => cheb1 x a d i * colEntry d ⟨(i 0).val, idx2_lt0 i⟩

/-- The second Chebyshev term from the raw aggregate `a` of the scaled first term. -/
def cheb2 (x0 x1 a : FVec Ideal SN64 .f32) (d : FVec Ideal SN1 .f32) : FVec Ideal SN64 .f32 :=
  fun i => ((FloatOps.ofBits .f32 0xC0000000#32 : Ideal .f32) * (a i * colEntry d ⟨(i 0).val, idx2_lt0 i⟩)
    + x1 i * (FloatOps.ofBits .f32 0x00000000#32 : Ideal .f32)) - x0 i

/-- One entry of the linear layer: the three terms against the three 64-row blocks of the weights, block by block. -/
def linearAt (x0 x1 x2 : FVec Ideal SN64 .f32) (w : FVec Ideal SW .f32) (b : FVec Ideal SB .f32)
    (p : Fin 100000) (q : Fin 64) : Ideal .f32 :=
  max ((((∑ k : Fin 64, x0 (ix2 p k) * w (ix2 (⟨k.val, by have := k.isLt; omega⟩ : Fin 192) q))
        + (∑ k : Fin 64, x1 (ix2 p k) * w (ix2 (⟨64 + k.val, by have := k.isLt; omega⟩ : Fin 192) q)))
        + (∑ k : Fin 64, x2 (ix2 p k) * w (ix2 (⟨64 + 64 + k.val, by have := k.isLt; omega⟩ : Fin 192) q)))
      + b (ix1 q))
    (FloatOps.ofBits .f32 0x00000000#32 : Ideal .f32)

/-- The layer's output: the linear layer of (x0, x1, cheb2 x0 x1 a d), clamped at zero. -/
def output (x0 x1 a : FVec Ideal SN64 .f32) (d : FVec Ideal SN1 .f32) (w : FVec Ideal SW .f32) (b : FVec Ideal SB .f32) :
    FVec Ideal SN64 .f32 :=
  fun i => linearAt x0 x1 (cheb2 x0 x1 a d) w b ⟨(i 0).val, idx2_lt0 i⟩ ⟨(i 1).val, idx2_lt1 i⟩

end Cert.Cheb

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.ScaleValue.lean ====
/-
  The first kernel region (every row of the features times its node's factor), read as a value.

  The region's grid has 20 points; point t handles rows 5000·t … 5000·t + 4999. Its output block at point t is the
  product, entry by entry, of the feature block with the factor block spread over the 64 columns. Since the 20 row
  blocks tile the 100000 rows, the output array after the region is `scaled x d` of the two arrays the region finds.
-/
import proofs.«132921_j46153718563236_1_alg».proof.Proof.Gen.KernelIdeal.Frame
import proofs.«132921_j46153718563236_1_alg».proof.Proof.Spec
import proofs.«132921_j46153718563236_1_alg».proof.Proof.LibColumn
import Idealize.ShloMosaic.Lib.Pipeline.Value
import Idealize.ShloMosaic.Lib.ValueIdx

set_option maxRecDepth 16384

noncomputable section

namespace Cert.KernelIdeal.ScaleValue

open Idealize.ShloMosaic Idealize.ShloMosaic.TcCoe Idealize.ShloMosaic.ValueIdx Idealize.SL.Sem
open Idealize.ShloMosaic.Pipeline (Dat)
open Cert.KernelIdeal Cert.KernelIdeal.Gen Cert.Cheb

variable (V : (c : Dev nD) → (b : Ref sig .tc) → Buf (Elt Ideal) ((c : Thread nD τ).loc b))

theorem zero2 : (![0, 0] : Fin 2 → Nat) = fun _ => 0 := funext fun a => by fin_cases a <;> rfl

/-- The body's product at row `r`, column `q` of a block: the feature entry times the row's factor. -/
theorem pay_apply (x : Vec Ideal S5000x64 .f32) (d : Vec Ideal S5000x1 .f32) (r : Fin 5000) (q : Fin 64) :
    k0_pay1 x d (ix2 r q) = x (ix2 r q) * d (ix2 r (0 : Fin 1)) := by
  unfold k0_pay1
  rw [mulf_apply, shapeCast_self]
  exact congrArg (x (ix2 r q) * ·) (Cert.Lib.Column.broadcastTo_a1_ab_apply d _ r q)

/-- Where each window's block sits at point `t`: row block `t`, the only column block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of `scaled` of the arrays the region finds. -/
theorem flushed_eq (c : Dev nD) (t : Fin cfg0.N) :
    (dat0 V c).flushed 2 t = ((cfg0.win 2).blk t).view.read (Elt Ideal) (scaled (V c main_arg0) (V c main_v7)) := by
  show (cfg0.win 2).cut (grid0.coords t) ((dat0 V c).after 2 t) = _
  rw [after0_2]
  unfold out0_2
  rw [View.canon_unit_zero zero2]
  simp only [View.ld_unit_zero (S := S5000x64) zero2, View.ld_unit_zero (S := S5000x1) zero2]
  obtain ⟨e0, e1, e2, e3, e4, e5⟩ := idx_facts t
  funext j
  obtain ⟨r, q, rfl⟩ : ∃ (r : Fin 5000) (q : Fin 64), j = ix2 r q := ⟨j 0, j 1, eq_ix2 j⟩
  show k0_pay1 (iblk0 V c 0 t) (iblk0 V c 1 t) (ix2 r q)
    = scaled (V c main_arg0) (V c main_v7) (((cfg0.win 2).blk t).view.emb (ix2 r q))
  refine (pay_apply _ _ r q).trans ?_
  have h0 : ((cfg0.win 0).blk t).view.emb (ix2 r q) = ((cfg0.win 2).blk t).view.emb (ix2 r q) := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 64 + 1 * q.val = win0_2.index t (1 : Fin 2) * 64 + 1 * q.val; omega
  have h1 : ∀ hlt, ((cfg0.win 1).blk t).view.emb (ix2 r (0 : Fin 1))
      = ix2 (⟨((((cfg0.win 2).blk t).view.emb (ix2 r q)) 0).val, hlt⟩ : Fin 100000) (0 : Fin 1) := by
    intro hlt
    funext a; apply Fin.ext
    match a with
    | ⟨0, _⟩ => show win0_1.index t (0 : Fin 2) * 5000 + 1 * r.val = win0_2.index t (0 : Fin 2) * 5000 + 1 * r.val; omega
    | ⟨1, _⟩ => show win0_1.index t (1 : Fin 2) * 1 + 1 * 0 = 0; omega
  unfold scaled colEntry
  exact congrArg₂ (fun a b : Ideal .f32 => a * b) (congrArg (V c main_arg0) h0) (congrArg (V c main_v7) (h1 _))

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v8).slice (win0_2.rect t)).set ↔ _
  rw [View.set_slice_whole, Rect.mem_set_unit]
  exact Iff.rfl

/-- The 20 row blocks tile the array: row `p` is in the block of point `p / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The region's output array after its run: every row of the features it found, times the row's factor. -/
theorem final (c : Dev nD) : (dat0 V c).arrAt 2 cfg0.N = scaled (V c main_arg0) (V c main_v7) :=
  (dat0 V c).arrAt_eq_of_cover 2 _ (fun t _ => flushed_eq V c t) cover

end Cert.KernelIdeal.ScaleValue

end
-- ==== Proof.Cheb1Value.lean ====
/-
  The second kernel region, read as a value: from the features x, the raw aggregate a and the node factors d it writes
  the first Chebyshev term  (-1)·(a·d) + x·0  and that term times d again.

  As in the first region, point t of the 20-point grid handles rows 5000·t … 5000·t + 4999 of every array, and the row
  blocks tile the arrays, so each output array after the region is one function of the three arrays the region finds.
-/
import proofs.«132921_j46153718563236_1_alg».proof.Proof.Gen.KernelIdeal.Frame
import proofs.«132921_j46153718563236_1_alg».proof.Proof.Spec
import proofs.«132921_j46153718563236_1_alg».proof.Proof.LibColumn
import Idealize.ShloMosaic.Lib.Pipeline.Value
import Idealize.ShloMosaic.Lib.ValueIdx

set_option maxRecDepth 16384

noncomputable section

namespace Cert.KernelIdeal.Cheb1Value

open Idealize.ShloMosaic Idealize.ShloMosaic.TcCoe Idealize.ShloMosaic.ValueIdx Idealize.SL.Sem
open Idealize.ShloMosaic.Pipeline (Dat)
open Cert.KernelIdeal Cert.KernelIdeal.Gen Cert.Cheb

variable (V : (c : Dev nD) → (b : Ref sig .tc) → Buf (Elt Ideal) ((c : Thread nD τ).loc b))

theorem zero2 : (![0, 0] : Fin 2 → Nat) = fun _ => 0 := funext fun a => by fin_cases a <;> rfl

/-- The first stored value at row `r`, column `q` of a block. -/
theorem term_apply (d : Vec Ideal S5000x1 .f32) (a x : Vec Ideal S5000x64 .f32) (r : Fin 5000) (q : Fin 64) :
    k1_pay2 d a x (ix2 r q)
      = (FloatOps.ofBits .f32 0xBF800000#32 : Ideal .f32) * (a (ix2 r q) * d (ix2 r (0 : Fin 1)))
        + x (ix2 r q) * (FloatOps.ofBits .f32 0x00000000#32 : Ideal .f32) := by
  unfold k1_pay2 k1_pay1
  rw [addf_apply, mulf_apply, mulf_apply, mulf_apply, shapeCast_self, shapeCast_self]
  exact congrArg (fun z : Ideal .f32 => (FloatOps.ofBits .f32 0xBF800000#32 : Ideal .f32) * (a (ix2 r q) * z)
      + x (ix2 r q) * (FloatOps.ofBits .f32 0x00000000#32 : Ideal .f32))
    (Cert.Lib.Column.broadcastTo_a1_ab_apply d _ r q)

/-- The second stored value: the first one times the row's factor. -/
theorem scaledTerm_apply (d : Vec Ideal S5000x1 .f32) (a x : Vec Ideal S5000x64 .f32) (r : Fin 5000) (q : Fin 64) :
    k1_pay3 d a x (ix2 r q) = k1_pay2 d a x (ix2 r q) * d (ix2 r (0 : Fin 1)) := by
  unfold k1_pay3 k1_pay1
  rw [mulf_apply, shapeCast_self]
  exact congrArg (fun z : Ideal .f32 => k1_pay2 d a x (ix2 r q) * z) (Cert.Lib.Column.broadcastTo_a1_ab_apply d _ r q)

/-- Where each window's block sits at point `t`: row block `t`, the only column block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem idx_onto3 : ∀ q0 : Fin 20, ∃ t : Fin cfg1.N, win1_3.index t = ![q0.val, 0] :=
  (by decide +kernel : ∀ q0 : Fin 20, ∃ t : Fin grid1.N, win1_3.index t = ![q0.val, 0])
theorem idx_onto4 : ∀ q0 : Fin 20, ∃ t : Fin cfg1.N, win1_4.index t = ![q0.val, 0] :=
  (by decide +kernel : ∀ q0 : Fin 20, ∃ t : Fin grid1.N, win1_4.index t = ![q0.val, 0])

/-- What point `t` writes back to the first output is block `t` of `cheb1` of the arrays the region finds. -/
theorem flushed3_eq (c : Dev nD) (t : Fin cfg1.N) :
    (dat1 V c).flushed 3 t
      = ((cfg1.win 3).blk t).view.read (Elt Ideal) (cheb1 (V c main_arg0) (V c main_v18) (V c main_v7)) := by
  show (cfg1.win 3).cut (grid1.coords t) ((dat1 V c).after 3 t) = _
  rw [after1_3]
  unfold out1_3
  rw [View.canon_unit_zero zero2]
  simp only [View.ld_unit_zero (S := S5000x64) zero2, View.ld_unit_zero (S := S5000x1) zero2]
  obtain ⟨e0, e1, e2, e3, e4, e5, e6, e7, e8, e9⟩ := idx_facts t
  funext j
  obtain ⟨r, q, rfl⟩ : ∃ (r : Fin 5000) (q : Fin 64), j = ix2 r q := ⟨j 0, j 1, eq_ix2 j⟩
  show k1_pay2 (iblk1 V c 2 t) (iblk1 V c 1 t) (iblk1 V c 0 t) (ix2 r q)
    = cheb1 (V c main_arg0) (V c main_v18) (V c main_v7) (((cfg1.win 3).blk t).view.emb (ix2 r q))
  refine (term_apply _ _ _ r q).trans ?_
  have h0 : ((cfg1.win 0).blk t).view.emb (ix2 r q) = ((cfg1.win 3).blk t).view.emb (ix2 r q) := by
    funext a; apply Fin.ext
    match a with
    | ⟨0, _⟩ => show win1_0.index t (0 : Fin 2) * 5000 + 1 * r.val = win1_3.index t (0 : Fin 2) * 5000 + 1 * r.val; omega
    | ⟨1, _⟩ => show win1_0.index t (1 : Fin 2) * 64 + 1 * q.val = win1_3.index t (1 : Fin 2) * 64 + 1 * q.val; omega
  have h1 : ((cfg1.win 1).blk t).view.emb (ix2 r q) = ((cfg1.win 3).blk t).view.emb (ix2 r q) := by
    funext a; apply Fin.ext
    match a with
    | ⟨0, _⟩ => show win1_1.index t (0 : Fin 2) * 5000 + 1 * r.val = win1_3.index t (0 : Fin 2) * 5000 + 1 * r.val; omega
    | ⟨1, _⟩ => show win1_1.index t (1 : Fin 2) * 64 + 1 * q.val = win1_3.index t (1 : Fin 2) * 64 + 1 * q.val; omega
  have h2 : ∀ hlt, ((cfg1.win 2).blk t).view.emb (ix2 r (0 : Fin 1))
      = ix2 (⟨((((cfg1.win 3).blk t).view.emb (ix2 r q)) 0).val, hlt⟩ : Fin 100000) (0 : Fin 1) := by
    intro hlt
    funext a; apply Fin.ext
    match a with
    | ⟨0, _⟩ => show win1_2.index t (0 : Fin 2) * 5000 + 1 * r.val = win1_3.index t (0 : Fin 2) * 5000 + 1 * r.val; omega
    | ⟨1, _⟩ => show win1_2.index t (1 : Fin 2) * 1 + 1 * 0 = 0; omega
  unfold cheb1 colEntry
  exact congrArg₂ (fun u v : Ideal .f32 => u + v)
    (congrArg (fun z : Ideal .f32 => (FloatOps.ofBits .f32 0xBF800000#32 : Ideal .f32) * z)
      (congrArg₂ (fun u v : Ideal .f32 => u * v) (congrArg (V c main_v18) h1) (congrArg (V c main_v7) (h2 _))))
    (congrArg (fun z : Ideal .f32 => z * (FloatOps.ofBits .f32 0x00000000#32 : Ideal .f32)) (congrArg (V c main_arg0) h0))

/-- What point `t` writes back to the second output is block `t` of `cheb1Scaled` of the arrays the region finds. -/
theorem flushed4_eq (c : Dev nD) (t : Fin cfg1.N) :
    (dat1 V c).flushed 4 t
      = ((cfg1.win 4).blk t).view.read (Elt Ideal) (cheb1Scaled (V c main_arg0) (V c main_v18) (V c main_v7)) := by
  show (cfg1.win 4).cut (grid1.coords t) ((dat1 V c).after 4 t) = _
  rw [after1_4]
  unfold out1_4
  rw [View.canon_unit_zero zero2]
  simp only [View.ld_unit_zero (S := S5000x64) zero2, View.ld_unit_zero (S := S5000x1) zero2]
  obtain ⟨e0, e1, e2, e3, e4, e5, e6, e7, e8, e9⟩ := idx_facts t
  funext j
  obtain ⟨r, q, rfl⟩ : ∃ (r : Fin 5000) (q : Fin 64), j = ix2 r q := ⟨j 0, j 1, eq_ix2 j⟩
  show k1_pay3 (iblk1 V c 2 t) (iblk1 V c 1 t) (iblk1 V c 0 t) (ix2 r q)
    = cheb1Scaled (V c main_arg0) (V c main_v18) (V c main_v7) (((cfg1.win 4).blk t).view.emb (ix2 r q))
  refine (scaledTerm_apply _ _ _ r q).trans ?_
  refine (congrArg (fun z : Ideal .f32 => z * iblk1 V c 2 t (ix2 r (0 : Fin 1))) (term_apply _ _ _ r q)).trans ?_
  have h0 : ((cfg1.win 0).blk t).view.emb (ix2 r q) = ((cfg1.win 4).blk t).view.emb (ix2 r q) := by
    funext a; apply Fin.ext
    match a with
    | ⟨0, _⟩ => show win1_0.index t (0 : Fin 2) * 5000 + 1 * r.val = win1_4.index t (0 : Fin 2) * 5000 + 1 * r.val; omega
    | ⟨1, _⟩ => show win1_0.index t (1 : Fin 2) * 64 + 1 * q.val = win1_4.index t (1 : Fin 2) * 64 + 1 * q.val; omega
  have h1 : ((cfg1.win 1).blk t).view.emb (ix2 r q) = ((cfg1.win 4).blk t).view.emb (ix2 r q) := by
    funext a; apply Fin.ext
    match a with
    | ⟨0, _⟩ => show win1_1.index t (0 : Fin 2) * 5000 + 1 * r.val = win1_4.index t (0 : Fin 2) * 5000 + 1 * r.val; omega
    | ⟨1, _⟩ => show win1_1.index t (1 : Fin 2) * 64 + 1 * q.val = win1_4.index t (1 : Fin 2) * 64 + 1 * q.val; omega
  have h2 : ∀ hlt, ((cfg1.win 2).blk t).view.emb (ix2 r (0 : Fin 1))
      = ix2 (⟨((((cfg1.win 4).blk t).view.emb (ix2 r q)) 0).val, hlt⟩ : Fin 100000) (0 : Fin 1) := by
    intro hlt
    funext a; apply Fin.ext
    match a with
    | ⟨0, _⟩ => show win1_2.index t (0 : Fin 2) * 5000 + 1 * r.val = win1_4.index t (0 : Fin 2) * 5000 + 1 * r.val; omega
    | ⟨1, _⟩ => show win1_2.index t (1 : Fin 2) * 1 + 1 * 0 = 0; omega
  unfold cheb1Scaled cheb1 colEntry
  exact congrArg₂ (fun u v : Ideal .f32 => u * v)
    (congrArg₂ (fun u v : Ideal .f32 => u + v)
      (congrArg (fun z : Ideal .f32 => (FloatOps.ofBits .f32 0xBF800000#32 : Ideal .f32) * z)
        (congrArg₂ (fun u v : Ideal .f32 => u * v) (congrArg (V c main_v18) h1) (congrArg (V c main_v7) (h2 _))))
      (congrArg (fun z : Ideal .f32 => z * (FloatOps.ofBits .f32 0x00000000#32 : Ideal .f32)) (congrArg (V c main_arg0) h0)))
    (congrArg (V c main_v7) (h2 _))

theorem mem_blk3 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v19_0).slice (win1_3.rect t)).set ↔ _
  rw [View.set_slice_whole, Rect.mem_set_unit]
  exact Iff.rfl

theorem mem_blk4 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v19_1).slice (win1_4.rect t)).set ↔ _
  rw [View.set_slice_whole, Rect.mem_set_unit]
  exact Iff.rfl

/-- The 20 row blocks of the first output tile its array. -/
theorem cover3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto3 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The 20 row blocks of the second output tile its array. -/
theorem cover4 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The first output array after the region: the first Chebyshev term of the arrays it found. -/
theorem final3 (c : Dev nD) : (dat1 V c).arrAt 3 cfg1.N = cheb1 (V c main_arg0) (V c main_v18) (V c main_v7) :=
  (dat1 V c).arrAt_eq_of_cover 3 _ (fun t _ => flushed3_eq V c t) cover3

/-- The second output array after the region: that term times the node factors. -/
theorem final4 (c : Dev nD) : (dat1 V c).arrAt 4 cfg1.N = cheb1Scaled (V c main_arg0) (V c main_v18) (V c main_v7) :=
  (dat1 V c).arrAt_eq_of_cover 4 _ (fun t _ => flushed4_eq V c t) cover4

end Cert.KernelIdeal.Cheb1Value

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.OutputValue.lean ====
/-
  The third kernel region, read as a value: from the features x0, the first Chebyshev term x1, the raw aggregate a of
  the scaled first term, the node factors d, the weights w and the bias b it writes

      max( x0·w[0:64] + x1·w[64:128] + x2·w[128:192] + b , 0 ),     x2 = ((-2)·(a·d) + x1·0) - x0,

  three matrix products into zero accumulators added up, each a plain sum over 64 terms on the extended reals (the
  narrowing of the operands to a shorter float format is the identity there).

  Point t of the 20-point grid handles rows 5000·t … 5000·t + 4999; the weights and the bias are whole at every point.
-/
import proofs.«132921_j46153718563236_1_alg».proof.Proof.Gen.KernelIdeal.Frame
import proofs.«132921_j46153718563236_1_alg».proof.Proof.Spec
import proofs.«132921_j46153718563236_1_alg».proof.Proof.LibColumn
import proofs.«132921_j46153718563236_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.OutputValue

open Idealize.ShloMosaic Idealize.ShloMosaic.TcCoe Idealize.ShloMosaic.ValueIdx Idealize.SL.Sem
open Idealize.ShloMosaic.Pipeline (Dat)
open Cert.KernelIdeal Cert.KernelIdeal.Gen Cert.Cheb

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## One matrix product of the body as a plain sum -/

theorem dot_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem dot_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem dot_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem dot_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A 5000-by-64 block times a 64-by-64 block into the zero accumulator, at `(r, q)`: row `r` against column `q`. -/
theorem product_apply (x : FVec Ideal S5000x64 .bf16) (wk : FVec Ideal S64x64 .bf16) (r : Fin 5000) (q : Fin 64) :
    matmul dot_S5000x64_S64x64_S5000x64_1_0_0_1_n_n none x wk (constant S5000x64 .f32 0x00000000#32) (ix2 r q) = ∑ k : Fin 64, x (ix2 r k) * wk (ix2 k q) :=
  Cert.Lib.Matmul.matmul_zero_ix2 dot_S5000x64_S64x64_S5000x64_1_0_0_1_n_n none rfl rfl dot_lhs0 dot_lhs1 dot_rhs0 dot_rhs1 x wk r q

/-- The bias, cast to a row and spread over the block's rows, at `(r, q)`: the bias at `q`. -/
theorem bias_apply (b : Vec Ideal S64 .f32) (r : Fin 5000) (q : Fin 64) :
    broadcastTo S5000x64 (shapeCast S1x64 b shapeCasts_S64_S1x64) broadcasts_S1x64_S5000x64 (ix2 r q) = b (ix1 q) :=
  (broadcastTo_1b_ab_apply _ broadcasts_S1x64_S5000x64 r q).trans
    (shapeCast_a_1a_apply b shapeCasts_S64_S1x64 (0 : Fin 1) q)

/-- The second Chebyshev term as the body forms it, at `(r, k)`. -/
theorem second_apply (d : Vec Ideal S5000x1 .f32) (a x0 x1 : Vec Ideal S5000x64 .f32) (r : Fin 5000) (k : Fin 64) :
    subf (addf (mulf (broadcast S5000x64 (FloatOps.ofBits .f32 0xC0000000#32 : Ideal .f32))
        (mulf (shapeCast S5000x64 a shapeCasts_S5000x64_S5000x64)
          (broadcastTo S5000x64 (shapeCast S5000x1 d shapeCasts_S5000x1_S5000x1) broadcasts_S5000x1_S5000x64)))
        (mulf (shapeCast S5000x64 x1 shapeCasts_S5000x64_S5000x64)
          (broadcast S5000x64 (FloatOps.ofBits .f32 0x00000000#32 : Ideal .f32)))) x0 (ix2 r k)
      = ((FloatOps.ofBits .f32 0xC0000000#32 : Ideal .f32) * (a (ix2 r k) * d (ix2 r (0 : Fin 1)))
          + x1 (ix2 r k) * (FloatOps.ofBits .f32 0x00000000#32 : Ideal .f32)) - x0 (ix2 r k) := by
  rw [subf_apply, addf_apply, mulf_apply, mulf_apply, mulf_apply, shapeCast_self, shapeCast_self, shapeCast_self,
    broadcast_apply, broadcast_apply]
  exact congrArg (fun z : Ideal .f32 => ((FloatOps.ofBits .f32 0xC0000000#32 : Ideal .f32) * (a (ix2 r k) * z)
      + x1 (ix2 r k) * (FloatOps.ofBits .f32 0x00000000#32 : Ideal .f32)) - x0 (ix2 r k))
    (Cert.Lib.Column.broadcastTo_a1_ab_apply d _ r k)

/-- The body's stored value at row `r`, column `q` of a block. -/
theorem out_apply (d : Vec Ideal S5000x1 .f32) (a x0 x1 : Vec Ideal S5000x64 .f32) (w : Vec Ideal S192x64 .f32)
    (b : Vec Ideal S64 .f32) (r : Fin 5000) (q : Fin 64) :
    k2_pay1 d a x0 x1 w b (ix2 r q)
      = max ((((∑ k : Fin 64, x0 (ix2 r k) * w (ix2 (⟨k.val, by have := k.isLt; omega⟩ : Fin 192) q))
          + (∑ k : Fin 64, x1 (ix2 r k) * w (ix2 (⟨64 + k.val, by have := k.isLt; omega⟩ : Fin 192) q)))
          + (∑ k : Fin 64, (((FloatOps.ofBits .f32 0xC0000000#32 : Ideal .f32) * (a (ix2 r k) * d (ix2 r (0 : Fin 1)))
                + x1 (ix2 r k) * (FloatOps.ofBits .f32 0x00000000#32 : Ideal .f32)) - x0 (ix2 r k))
              * w (ix2 (⟨64 + 64 + k.val, by have := k.isLt; omega⟩ : Fin 192) q)))
        + b (ix1 q))
      (FloatOps.ofBits .f32 0x00000000#32 : Ideal .f32) := by
  unfold k2_pay1
  rw [maximumf_apply, broadcast_apply, addf_apply, addf_apply, addf_apply, bias_apply, product_apply, product_apply,
    product_apply]
  refine congrArg (fun z : Ideal .f32 => max (z + b (ix1 q)) (FloatOps.ofBits .f32 0x00000000#32 : Ideal .f32)) ?_
  refine congrArg₂ (fun u v : Ideal .f32 => u + v) (congrArg₂ (fun u v : Ideal .f32 => u + v) ?_ ?_) ?_
  · refine Finset.sum_congr rfl fun k _ => ?_
    exact congrArg (fun z : Ideal .f32 => x0 (ix2 r k) * z)
      (slice2_axis0_apply 0 w slices_S192x64_o0_0_S64x64 k q (⟨k.val, by have := k.isLt; omega⟩ : Fin 192) (by simp))
  · refine Finset.sum_congr rfl fun k _ => ?_
    exact congrArg₂ (fun u v : Ideal .f32 => u * v) (congrFun (shapeCast_self x1 shapeCasts_S5000x64_S5000x64) (ix2 r k))
      (slice2_axis0_apply 64 w slices_S192x64_o64_0_S64x64 k q (⟨64 + k.val, by have := k.isLt; omega⟩ : Fin 192) rfl)
  · refine Finset.sum_congr rfl fun k _ => ?_
    exact congrArg₂ (fun u v : Ideal .f32 => u * v) (second_apply d a x0 x1 r k)
      (slice2_axis0_apply 128 w slices_S192x64_o128_0_S64x64 k q (⟨64 + 64 + k.val, by have := k.isLt; omega⟩ : Fin 192) rfl)

/-! ## From the blocks to the array -/

/-- Where each window's block sits at point `t`: the row-blocked windows at row block `t`, the weights and the bias whole. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem idx_onto : ∀ q0 : Fin 20, ∃ t : Fin cfg2.N, win2_6.index t = ![q0.val, 0] :=
  (by decide +kernel : ∀ q0 : Fin 20, ∃ t : Fin grid2.N, win2_6.index t = ![q0.val, 0])

/-- What point `t` writes back is block `t` of `output` of the arrays the region finds. -/
theorem flushed_eq (c : Dev nD) (t : Fin cfg2.N) :
    (dat2 V c).flushed 6 t = ((cfg2.win 6).blk t).view.read (Elt Ideal)
      (output (V c main_arg0) (V c main_v19_0) (V c main_v29) (V c main_v7) (V c main_arg3) (V c main_arg4)) := by
  show (cfg2.win 6).cut (grid2.coords t) ((dat2 V c).after 6 t) = _
  rw [after2_6]
  unfold out2_6
  rw [View.canon_unit_zero zero2]
  simp only [View.ld_unit_zero (S := S5000x64) zero2, View.ld_unit_zero (S := S5000x1) zero2,
    View.ld_unit_zero (S := S192x64) zero2, View.ld_unit_zero (S := S64) zero1]
  obtain ⟨e00, e01, e10, e11, e20, e21, e30, e31, e40, e41, e50, e60, e61⟩ := idx_facts t
  funext j
  obtain ⟨r, q, rfl⟩ : ∃ (r : Fin 5000) (q : Fin 64), j = ix2 r q := ⟨j 0, j 1, eq_ix2 j⟩
  show k2_pay1 (iblk2 V c 3 t) (iblk2 V c 2 t) (iblk2 V c 0 t) (iblk2 V c 1 t) (iblk2 V c 4 t) (iblk2 V c 5 t) (ix2 r q)
    = output (V c main_arg0) (V c main_v19_0) (V c main_v29) (V c main_v7) (V c main_arg3) (V c main_arg4)
        (((cfg2.win 6).blk t).view.emb (ix2 r q))
  refine (out_apply _ _ _ _ _ _ r q).trans ?_
  have r0 : ∀ hlt (k : Fin 64), ((cfg2.win 0).blk t).view.emb (ix2 r k)
      = ix2 (⟨((((cfg2.win 6).blk t).view.emb (ix2 r q)) 0).val, hlt⟩ : Fin 100000) k := by
    intro hlt k; funext a; apply Fin.ext
    match a with
    | ⟨0, _⟩ => show win2_0.index t (0 : Fin 2) * 5000 + 1 * r.val = win2_6.index t (0 : Fin 2) * 5000 + 1 * r.val; omega
    | ⟨1, _⟩ => show win2_0.index t (1 : Fin 2) * 64 + 1 * k.val = k.val; omega
  have r1 : ∀ hlt (k : Fin 64), ((cfg2.win 1).blk t).view.emb (ix2 r k)
      = ix2 (⟨((((cfg2.win 6).blk t).view.emb (ix2 r q)) 0).val, hlt⟩ : Fin 100000) k := by
    intro hlt k; funext a; apply Fin.ext
    match a with
    | ⟨0, _⟩ => show win2_1.index t (0 : Fin 2) * 5000 + 1 * r.val = win2_6.index t (0 : Fin 2) * 5000 + 1 * r.val; omega
    | ⟨1, _⟩ => show win2_1.index t (1 : Fin 2) * 64 + 1 * k.val = k.val; omega
  have r2 : ∀ hlt (k : Fin 64), ((cfg2.win 2).blk t).view.emb (ix2 r k)
      = ix2 (⟨((((cfg2.win 6).blk t).view.emb (ix2 r q)) 0).val, hlt⟩ : Fin 100000) k := by
    intro hlt k; funext a; apply Fin.ext
    match a with
    | ⟨0, _⟩ => show win2_2.index t (0 : Fin 2) * 5000 + 1 * r.val = win2_6.index t (0 : Fin 2) * 5000 + 1 * r.val; omega
    | ⟨1, _⟩ => show win2_2.index t (1 : Fin 2) * 64 + 1 * k.val = k.val; omega
  have r3 : ∀ hlt, ((cfg2.win 3).blk t).view.emb (ix2 r (0 : Fin 1))
      = ix2 (⟨((((cfg2.win 6).blk t).view.emb (ix2 r q)) 0).val, hlt⟩ : Fin 100000) (0 : Fin 1) := by
    intro hlt; funext a; apply Fin.ext
    match a with
    | ⟨0, _⟩ => show win2_3.index t (0 : Fin 2) * 5000 + 1 * r.val = win2_6.index t (0 : Fin 2) * 5000 + 1 * r.val; omega
    | ⟨1, _⟩ => show win2_3.index t (1 : Fin 2) * 1 + 1 * 0 = 0; omega
  have r4 : ∀ hlt (kk : Fin 192), ((cfg2.win 4).blk t).view.emb (ix2 kk q)
      = ix2 kk (⟨((((cfg2.win 6).blk t).view.emb (ix2 r q)) 1).val, hlt⟩ : Fin 64) := by
    intro hlt kk; funext a; apply Fin.ext
    match a with
    | ⟨0, _⟩ => show win2_4.index t (0 : Fin 2) * 192 + 1 * kk.val = kk.val; omega
    | ⟨1, _⟩ => show win2_4.index t (1 : Fin 2) * 64 + 1 * q.val = win2_6.index t (1 : Fin 2) * 64 + 1 * q.val; omega
  have r5 : ∀ hlt, ((cfg2.win 5).blk t).view.emb (ix1 q) = ix1 (⟨((((cfg2.win 6).blk t).view.emb (ix2 r q)) 1).val, hlt⟩ : Fin 64) := by
    intro hlt; funext a; apply Fin.ext
    match a with
    | ⟨0, _⟩ => show win2_5.index t (0 : Fin 1) * 64 + 1 * q.val = win2_6.index t (1 : Fin 2) * 64 + 1 * q.val; omega
  unfold output linearAt cheb2 colEntry
  refine congrArg₂ (fun u v : Ideal .f32 => max u v) ?_ rfl
  refine congrArg₂ (fun u v : Ideal .f32 => u + v) (congrArg₂ (fun u v : Ideal .f32 => u + v)
    (congrArg₂ (fun u v : Ideal .f32 => u + v) ?_ ?_) ?_) (congrArg (V c main_arg4) (r5 _))
  · exact Finset.sum_congr rfl fun k _ => congrArg₂ (fun u v : Ideal .f32 => u * v)
      (congrArg (V c main_arg0) (r0 _ k)) (congrArg (V c main_arg3) (r4 _ _))
  · exact Finset.sum_congr rfl fun k _ => congrArg₂ (fun u v : Ideal .f32 => u * v)
      (congrArg (V c main_v19_0) (r1 _ k)) (congrArg (V c main_arg3) (r4 _ _))
  · refine Finset.sum_congr rfl fun k _ => congrArg₂ (fun u v : Ideal .f32 => u * v) ?_ (congrArg (V c main_arg3) (r4 _ _))
    exact congrArg₂ (fun u v : Ideal .f32 => u - v)
      (congrArg₂ (fun u v : Ideal .f32 => u + v)
        (congrArg (fun z : Ideal .f32 => (FloatOps.ofBits .f32 0xC0000000#32 : Ideal .f32) * z)
          (congrArg₂ (fun u v : Ideal .f32 => u * v) (congrArg (V c main_v29) (r2 _ k)) (congrArg (V c main_v7) (r3 _))))
        (congrArg (fun z : Ideal .f32 => z * (FloatOps.ofBits .f32 0x00000000#32 : Ideal .f32))
          (congrArg (V c main_v19_0) (r1 _ k))))
      (congrArg (V c main_arg0) (r0 _ k))

/-- An index of the array is in point `t`'s block iff each coordinate is in the block's range on its axis. -/
theorem mem_blk (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v30).slice (win2_6.rect t)).set ↔ _
  rw [View.set_slice_whole, Rect.mem_set_unit]
  exact Iff.rfl

/-- The 20 row blocks tile the array: row `p` is in the block of point `p / 5000`. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The region's output array after its run: the layer's output from the six arrays it found. -/
theorem final (c : Dev nD) : (dat2 V c).arrAt 6 cfg2.N
    = output (V c main_arg0) (V c main_v19_0) (V c main_v29) (V c main_v7) (V c main_arg3) (V c main_arg4) :=
  (dat2 V c).arrAt_eq_of_cover 6 _ (fun t _ => flushed_eq V c t) cover

end Cert.KernelIdeal.OutputValue

end
-- ==== Proof.LibSumBlocks3.lean ====
/-
  A finite sum over three consecutive blocks of equal length.

  In any commutative additive monoid, a sum over the first b + b + b indices is the sum over the first block, plus the
  sum over the second block, plus the sum over the third: only associativity and commutativity of addition are used,
  so the statement holds on the extended reals, where distributivity and cancellation would need finiteness.
-/
import Mathlib.Algebra.BigOperators.Fin

open scoped BigOperators

namespace Cert.Lib.SumBlocks3

/-- A sum over `K = b + b + b` indices, block by block: entry `j` of block 0 is index `j`, of block 1 index `b + j`,
    of block 2 index `b + b + j`. -/
theorem sum_three_blocks {M : Type*} [AddCommMonoid M] (b K : ℕ) (hK : K = b + b + b) (g : Fin K → M) :
    ∑ k : Fin K, g k
      = (∑ j : Fin b, g ⟨j.val, by have := j.isLt; omega⟩ + ∑ j : Fin b, g ⟨b + j.val, by have := j.isLt; omega⟩)
        + ∑ j : Fin b, g ⟨b + b + j.val, by have := j.isLt; omega⟩ := by
  subst hK
  rw [Fin.sum_univ_add, Fin.sum_univ_add]
  rfl

end Cert.Lib.SumBlocks3
-- ==== Proof.LibConcatCols3.lean ====
/-
  Three tables of one shape joined along their columns, read at an index.

  The join of three a-by-b tables along axis 1 is an a-by-K table (K = b + b + b). Its entry at (p, k) is the first
  table's entry (p, j) when k = j, the second's when k = b + j, the third's when k = b + b + j.
-/
import Idealize.ShloMosaic.Lib.Pipeline.Value
import Idealize.ShloMosaic.Lib.ValueIdx

noncomputable section

namespace Cert.Lib.ConcatCols3

open Idealize.ShloMosaic Idealize.ShloMosaic.ValueIdx

variable {α : Type}

/-- Columns `0 … b-1` of the join are the first table. -/
theorem concat3_cols_first {a b K : ℕ} (u0 u1 u2 : (⟨2, ![a, b]⟩ : Shape).Idx → α)
    (h : Shape.Concatenates (([⟨⟨2, ![a, b]⟩, u0⟩, ⟨⟨2, ![a, b]⟩, u1⟩, ⟨⟨2, ![a, b]⟩, u2⟩] :
      List ((s : Shape) × (s.Idx → α))).map (·.1)) ⟨2, ![a, K]⟩ 1)
    (p : Fin a) (k : Fin K) (j : Fin b) (hk : k.val = j.val) :
    concatenate ⟨2, ![a, K]⟩ 1 [⟨⟨2, ![a, b]⟩, u0⟩, ⟨⟨2, ![a, b]⟩, u1⟩, ⟨⟨2, ![a, b]⟩, u2⟩] h (ix2 p k) = u0 (ix2 p j) := by
  refine concatenate_apply_piece 1 _ h (ix2 p k) 0 (by simp) ⟨2, ![a, b]⟩ u0 rfl rfl 0 rfl (ix2 p j) ?_ ?_
  · intro bb hb
    match bb with
    | ⟨0, _⟩ => rfl
    | ⟨1, _⟩ => exact absurd rfl hb
  · show 0 + j.val = k.val
    omega

/-- Columns `b … 2b-1` of the join are the second table. -/
theorem concat3_cols_second {a b K : ℕ} (u0 u1 u2 : (⟨2, ![a, b]⟩ : Shape).Idx → α)
    (h : Shape.Concatenates (([⟨⟨2, ![a, b]⟩, u0⟩, ⟨⟨2, ![a, b]⟩, u1⟩, ⟨⟨2, ![a, b]⟩, u2⟩] :
      List ((s : Shape) × (s.Idx → α))).map (·.1)) ⟨2, ![a, K]⟩ 1)
    (p : Fin a) (k : Fin K) (j : Fin b) (hk : k.val = b + j.val) :
    concatenate ⟨2, ![a, K]⟩ 1 [⟨⟨2, ![a, b]⟩, u0⟩, ⟨⟨2, ![a, b]⟩, u1⟩, ⟨⟨2, ![a, b]⟩, u2⟩] h (ix2 p k) = u1 (ix2 p j) := by
  refine concatenate_apply_piece 1 _ h (ix2 p k) 1 (by simp) ⟨2, ![a, b]⟩ u1 rfl rfl b ?_ (ix2 p j) ?_ ?_
  · simp
  · intro bb hb
    match bb with
    | ⟨0, _⟩ => rfl
    | ⟨1, _⟩ => exact absurd rfl hb
  · show b + j.val = k.val
    omega

/-- Columns `2b … 3b-1` of the join are the third table. -/
theorem concat3_cols_third {a b K : ℕ} (u0 u1 u2 : (⟨2, ![a, b]⟩ : Shape).Idx → α)
    (h : Shape.Concatenates (([⟨⟨2, ![a, b]⟩, u0⟩, ⟨⟨2, ![a, b]⟩, u1⟩, ⟨⟨2, ![a, b]⟩, u2⟩] :
      List ((s : Shape) × (s.Idx → α))).map (·.1)) ⟨2, ![a, K]⟩ 1)
    (p : Fin a) (k : Fin K) (j : Fin b) (hk : k.val = b + b + j.val) :
    concatenate ⟨2, ![a, K]⟩ 1 [⟨⟨2, ![a, b]⟩, u0⟩, ⟨⟨2, ![a, b]⟩, u1⟩, ⟨⟨2, ![a, b]⟩, u2⟩] h (ix2 p k) = u2 (ix2 p j) := by
  refine concatenate_apply_piece 1 _ h (ix2 p k) 2 (by simp) ⟨2, ![a, b]⟩ u2 rfl rfl (b + b) ?_ (ix2 p j) ?_ ?_
  · simp
  · intro bb hb
    match bb with
    | ⟨0, _⟩ => rfl
    | ⟨1, _⟩ => exact absurd rfl hb
  · show b + b + j.val = k.val
    omega

end Cert.Lib.ConcatCols3

end
-- ==== Proof.RefStages.lean ====
/-
  The reference program's stages are the specification's functions.

  Read one operation at a time, the reference computes: the scaled features (its %9), the first Chebyshev term (%26),
  that term scaled (%28), the second term (%46), and the output (%52): the three terms joined along the columns,
  multiplied by the whole 192-row weight table, plus the bias, clamped at zero. The one place where the two programs
  arrange the arithmetic differently is the matrix product: a sum over the 192 joined columns against three sums over 64
  columns each. The 192-term sum is cut into its three blocks of 64 (associativity and commutativity of addition only),
  and in each block the joined table is the corresponding term.
-/
import proofs.«132921_j46153718563236_1_alg».proof.Proof.Gen.ReferenceIdeal.Read
import proofs.«132921_j46153718563236_1_alg».proof.Proof.Spec
import proofs.«132921_j46153718563236_1_alg».proof.Proof.LibSumBlocks3
import proofs.«132921_j46153718563236_1_alg».proof.Proof.LibConcatCols3
import Idealize.ShloMosaic.Lib.ValueIdx

set_option maxRecDepth 16384

noncomputable section

open scoped BigOperators

namespace Cert.ReferenceIdeal.Stages

open Idealize.ShloMosaic Idealize.ShloMosaic.ValueIdx
open Cert.ReferenceIdeal Cert.ReferenceIdeal.Read Cert.Cheb

/-! ## The index functions of the layout operations, at coordinates -/

theorem col_ix8 (p : Fin 100000) (q : Fin 64) : idx_main_v8 (ix2 p q) = ix2 p (0 : Fin 1) :=
  funext fun a => Fin.ext (by match a with | ⟨0, _⟩ => rfl | ⟨1, _⟩ => rfl)
theorem col_ix20 (p : Fin 100000) (q : Fin 64) : idx_main_v20 (ix2 p q) = ix2 p (0 : Fin 1) :=
  funext fun a => Fin.ext (by match a with | ⟨0, _⟩ => rfl | ⟨1, _⟩ => rfl)
theorem col_ix27 (p : Fin 100000) (q : Fin 64) : idx_main_v27 (ix2 p q) = ix2 p (0 : Fin 1) :=
  funext fun a => Fin.ext (by match a with | ⟨0, _⟩ => rfl | ⟨1, _⟩ => rfl)
theorem col_ix39 (p : Fin 100000) (q : Fin 64) : idx_main_v39 (ix2 p q) = ix2 p (0 : Fin 1) :=
  funext fun a => Fin.ext (by match a with | ⟨0, _⟩ => rfl | ⟨1, _⟩ => rfl)
theorem bias_ix (p : Fin 100000) (q : Fin 64) : idx_main_v49 (idx_main_v50 (ix2 p q)) = ix1 q :=
  funext fun a => Fin.ext (by match a with | ⟨0, _⟩ => rfl)
theorem left_ix (p : Fin 100000) (q : Fin 64) (k : Fin 192) : lidx_main_v48 (ix2 p q) k = ix2 p k :=
  funext fun a => Fin.ext (by match a with | ⟨0, _⟩ => rfl | ⟨1, _⟩ => rfl)
theorem right_ix (p : Fin 100000) (q : Fin 64) (k : Fin 192) : ridx_main_v48 (ix2 p q) k = ix2 k q :=
  funext fun a => Fin.ext (by match a with | ⟨0, _⟩ => rfl | ⟨1, _⟩ => rfl)

variable (x0 : FVec Ideal SN64 .f32) (x1 x2 : (⟨S1250000, .i32⟩ : BufTy).Contents (Elt Ideal))
  (x3 : FVec Ideal SW .f32) (x4 : FVec Ideal SB .f32)

/-- The reference's scaled features. -/
theorem stage_scaled : val_main_v9 (F := Ideal) x0 x2 = scaled x0 (val_main_v7 (F := Ideal) x2) := by
  funext i
  obtain ⟨p, q, rfl⟩ : ∃ (p : Fin 100000) (q : Fin 64), i = ix2 p q := ⟨i 0, i 1, eq_ix2 i⟩
  rw [val_main_v9_apply, val_main_v8_apply, col_ix8]
  rfl

/-- The reference's first Chebyshev term, from its raw aggregate. -/
theorem stage_cheb1 : val_main_v26 (F := Ideal) x0 x1 x2
    = cheb1 x0 (val_main_v19 (F := Ideal) x0 x1 x2) (val_main_v7 (F := Ideal) x2) := by
  funext i
  obtain ⟨p, q, rfl⟩ : ∃ (p : Fin 100000) (q : Fin 64), i = ix2 p q := ⟨i 0, i 1, eq_ix2 i⟩
  rw [val_main_v26_apply, val_main_v23_apply, val_main_v22_apply, val_main_cst_5_apply, val_main_v21_apply,
    val_main_v20_apply, col_ix20, val_main_v25_apply, val_main_v24_apply, val_main_cst_6_apply]
  rfl

/-- The reference's first term scaled again. -/
theorem stage_cheb1Scaled : val_main_v28 (F := Ideal) x0 x1 x2
    = cheb1Scaled x0 (val_main_v19 (F := Ideal) x0 x1 x2) (val_main_v7 (F := Ideal) x2) := by
  funext i
  obtain ⟨p, q, rfl⟩ : ∃ (p : Fin 100000) (q : Fin 64), i = ix2 p q := ⟨i 0, i 1, eq_ix2 i⟩
  rw [val_main_v28_apply, val_main_v27_apply, col_ix27, stage_cheb1]
  rfl

/-- The reference's second Chebyshev term, from its first term and the raw aggregate of the scaled first term. -/
theorem stage_cheb2 : val_main_v46 (F := Ideal) x0 x1 x2
    = cheb2 x0 (val_main_v26 (F := Ideal) x0 x1 x2) (val_main_v38 (F := Ideal) x0 x1 x2) (val_main_v7 (F := Ideal) x2) := by
  funext i
  obtain ⟨p, q, rfl⟩ : ∃ (p : Fin 100000) (q : Fin 64), i = ix2 p q := ⟨i 0, i 1, eq_ix2 i⟩
  rw [val_main_v46_apply, val_main_v45_apply, val_main_v42_apply, val_main_v41_apply, val_main_cst_10_apply,
    val_main_v40_apply, val_main_v39_apply, col_ix39, val_main_v44_apply, val_main_v43_apply, val_main_cst_11_apply]
  rfl

/-- The joined table against the weights, at `(p, q)`: the 192-term sum cut into the three terms' blocks. -/
theorem product_split (p : Fin 100000) (q : Fin 64) :
    (∑ k : Fin 192, val_main_v47 (F := Ideal) x0 x1 x2 (ix2 p k) * x3 (ix2 k q))
      = ((∑ k : Fin 64, x0 (ix2 p k) * x3 (ix2 (⟨k.val, by have := k.isLt; omega⟩ : Fin 192) q))
          + (∑ k : Fin 64, val_main_v26 (F := Ideal) x0 x1 x2 (ix2 p k)
              * x3 (ix2 (⟨64 + k.val, by have := k.isLt; omega⟩ : Fin 192) q)))
        + (∑ k : Fin 64, val_main_v46 (F := Ideal) x0 x1 x2 (ix2 p k)
              * x3 (ix2 (⟨64 + 64 + k.val, by have := k.isLt; omega⟩ : Fin 192) q)) := by
  rw [Cert.Lib.SumBlocks3.sum_three_blocks 64 192 rfl]
  refine congrArg₂ (fun u v : Ideal .f32 => u + v) (congrArg₂ (fun u v : Ideal .f32 => u + v) ?_ ?_) ?_
  · refine Finset.sum_congr rfl fun k _ => ?_
    exact congrArg (fun z : Ideal .f32 => z * x3 (ix2 (⟨k.val, by have := k.isLt; omega⟩ : Fin 192) q))
      (Cert.Lib.ConcatCols3.concat3_cols_first _ _ _ _ p _ k rfl)
  · refine Finset.sum_congr rfl fun k _ => ?_
    exact congrArg (fun z : Ideal .f32 => z * x3 (ix2 (⟨64 + k.val, by have := k.isLt; omega⟩ : Fin 192) q))
      (Cert.Lib.ConcatCols3.concat3_cols_second _ _ _ _ p _ k rfl)
  · refine Finset.sum_congr rfl fun k _ => ?_
    exact congrArg (fun z : Ideal .f32 => z * x3 (ix2 (⟨64 + 64 + k.val, by have := k.isLt; omega⟩ : Fin 192) q))
      (Cert.Lib.ConcatCols3.concat3_cols_third _ _ _ _ p _ k rfl)

/-- The reference's output. -/
theorem stage_output : val_main_v52 (F := Ideal) x0 x1 x2 x3 x4
    = output x0 (val_main_v26 (F := Ideal) x0 x1 x2) (val_main_v38 (F := Ideal) x0 x1 x2) (val_main_v7 (F := Ideal) x2) x3 x4 := by
  funext i
  obtain ⟨p, q, rfl⟩ : ∃ (p : Fin 100000) (q : Fin 64), i = ix2 p q := ⟨i 0, i 1, eq_ix2 i⟩
  rw [val_main_v52_apply, val_main_v51_apply, val_main_v48_apply, val_main_call1_v0_apply, val_main_call1_cst_apply,
    val_main_v50_apply, val_main_v49_apply, bias_ix]
  simp only [left_ix, right_ix]
  rw [product_split, stage_cheb2]
  rfl

end Cert.ReferenceIdeal.Stages

end
-- ==== Proof.KernelValue.lean ====
/-
  The kernel program's result array as a function of its arguments.

  Walking the program's eight segments in order: the leading host operations leave the per-node factor; the first
  region scales the features by it; the next host operations aggregate the scaled features over the graph; the second
  region forms the first Chebyshev term and its scaled copy; the next host operations aggregate the scaled term; the
  third region forms the second term and the linear layer. A region leaves its input arrays as it found them, a host
  stretch leaves every buffer it does not write, so each argument reaches every segment as launched.
-/
import proofs.«132921_j46153718563236_1_alg».proof.Proof.Gen.KernelIdeal.Frame
import proofs.«132921_j46153718563236_1_alg».proof.Proof.HostTerms
import proofs.«132921_j46153718563236_1_alg».proof.Proof.ScaleValue
import proofs.«132921_j46153718563236_1_alg».proof.Proof.Cheb1Value
import proofs.«132921_j46153718563236_1_alg».proof.Proof.OutputValue
import proofs.«132921_j46153718563236_1_alg».proof.Proof.RefStages
import proofs.«132921_j46153718563236_1_alg».proof.Proof.Spec

set_option maxRecDepth 16384

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.HostTerms Cert.Cheb

variable (m : (ℓ : Loc nD τ sig) → Buf (Elt Ideal) ℓ) (ρ : Dev nD → PrngReg) (c : Dev nD)

/-! ## The arguments and the intermediate arrays, named -/

/-- The node features as launched. -/
abbrev feat : FVec Ideal S100000x64 .f32 := m ((c.tc : Thread nD τ).loc main_arg0)
/-- The edges' sources as launched. -/
abbrev src : (⟨S1250000, .i32⟩ : BufTy).Contents (Elt Ideal) := m ((c.tc : Thread nD τ).loc main_arg1)
/-- The edges' destinations as launched. -/
abbrev dst : (⟨S1250000, .i32⟩ : BufTy).Contents (Elt Ideal) := m ((c.tc : Thread nD τ).loc main_arg2)
/-- The weights as launched. -/
abbrev wts : FVec Ideal S192x64 .f32 := m ((c.tc : Thread nD τ).loc main_arg3)
/-- The bias as launched. -/
abbrev bias : FVec Ideal S64 .f32 := m ((c.tc : Thread nD τ).loc main_arg4)

/-- The per-node factor. -/
def factor : FVec Ideal S100000x1 .f32 := nodeFactor (dst m c)
/-- The aggregate of the scaled features. -/
def agg0 : FVec Ideal S100000x64 .f32 := aggregate (scaled (feat m c) (factor m c)) (src m c) (dst m c)
/-- The first Chebyshev term. -/
def term1 : FVec Ideal S100000x64 .f32 := cheb1 (feat m c) (agg0 m c) (factor m c)
/-- The first term scaled. -/
def term1Scaled : FVec Ideal S100000x64 .f32 := cheb1Scaled (feat m c) (agg0 m c) (factor m c)
/-- The aggregate of the scaled first term. -/
def agg1 : FVec Ideal S100000x64 .f32 := aggregate (term1Scaled m c) (src m c) (dst m c)
/-- The layer's output. -/
def result : FVec Ideal S100000x64 .f32 := output (feat m c) (term1 m c) (agg1 m c) (factor m c) (wts m c) (bias m c)

/-! ## At the first region's entry -/

theorem in3_arg0 : W3 m ρ c (Proc.devRef .tc main_arg0) = m ((c.tc : Thread nD τ).loc main_arg0) := lead_keep_main_arg0 (W0 m ρ c)
theorem in3_arg1 : W3 m ρ c (Proc.devRef .tc main_arg1) = m ((c.tc : Thread nD τ).loc main_arg1) := lead_keep_main_arg1 (W0 m ρ c)
theorem in3_arg2 : W3 m ρ c (Proc.devRef .tc main_arg2) = m ((c.tc : Thread nD τ).loc main_arg2) := lead_keep_main_arg2 (W0 m ρ c)
theorem in3_arg3 : W3 m ρ c (Proc.devRef .tc main_arg3) = m ((c.tc : Thread nD τ).loc main_arg3) := lead_keep_main_arg3 (W0 m ρ c)
theorem in3_arg4 : W3 m ρ c (Proc.devRef .tc main_arg4) = m ((c.tc : Thread nD τ).loc main_arg4) := lead_keep_main_arg4 (W0 m ρ c)
theorem in3_factor : W3 m ρ c (Proc.devRef .tc main_v7) = factor m c := lead_v7 (W0 m ρ c)

/-! ## At the first region's exit -/

theorem in4_scaled : W4 m ρ c (Proc.devRef .tc main_v8) = scaled (feat m c) (factor m c) :=
  (W4_arr m ρ c 2).trans ((ScaleValue.final (V3 m ρ) c).trans (congrArg₂ scaled (in3_arg0 m ρ c) (in3_factor m ρ c)))
theorem in4_arg0 : W4 m ρ c (Proc.devRef .tc main_arg0) = m ((c.tc : Thread nD τ).loc main_arg0) :=
  (W4_arr m ρ c 0).trans (((dat0 (V3 m ρ) c).arrAt_in 0 rfl _).trans ((A_eq0 (V3 m ρ) c 0).trans (in3_arg0 m ρ c)))
theorem in4_factor : W4 m ρ c (Proc.devRef .tc main_v7) = factor m c :=
  (W4_arr m ρ c 1).trans (((dat0 (V3 m ρ) c).arrAt_in 1 rfl _).trans ((A_eq0 (V3 m ρ) c 1).trans (in3_factor m ρ c)))
theorem in4_arg1 : W4 m ρ c (Proc.devRef .tc main_arg1) = m ((c.tc : Thread nD τ).loc main_arg1) :=
  (W4_of_ne m ρ c main_arg1 (by decide)).trans (in3_arg1 m ρ c)
theorem in4_arg2 : W4 m ρ c (Proc.devRef .tc main_arg2) = m ((c.tc : Thread nD τ).loc main_arg2) :=
  (W4_of_ne m ρ c main_arg2 (by decide)).trans (in3_arg2 m ρ c)
theorem in4_arg3 : W4 m ρ c (Proc.devRef .tc main_arg3) = m ((c.tc : Thread nD τ).loc main_arg3) :=
  (W4_of_ne m ρ c main_arg3 (by decide)).trans (in3_arg3 m ρ c)
theorem in4_arg4 : W4 m ρ c (Proc.devRef .tc main_arg4) = m ((c.tc : Thread nD τ).loc main_arg4) :=
  (W4_of_ne m ρ c main_arg4 (by decide)).trans (in3_arg4 m ρ c)

/-! ## At the second region's entry -/

theorem in5_agg0 : W5 m ρ c (Proc.devRef .tc main_v18) = agg0 m c := by
  refine (stretch1_v18 (W4 m ρ c)).trans ?_
  rw [in4_scaled m ρ c, in4_arg1 m ρ c, in4_arg2 m ρ c]
  rfl
theorem in5_arg0 : W5 m ρ c (Proc.devRef .tc main_arg0) = m ((c.tc : Thread nD τ).loc main_arg0) :=
  (stretch1_keep_main_arg0 (W4 m ρ c)).trans (in4_arg0 m ρ c)
theorem in5_arg1 : W5 m ρ c (Proc.devRef .tc main_arg1) = m ((c.tc : Thread nD τ).loc main_arg1) :=
  (stretch1_keep_main_arg1 (W4 m ρ c)).trans (in4_arg1 m ρ c)
theorem in5_arg2 : W5 m ρ c (Proc.devRef .tc main_arg2) = m ((c.tc : Thread nD τ).loc main_arg2) :=
  (stretch1_keep_main_arg2 (W4 m ρ c)).trans (in4_arg2 m ρ c)
theorem in5_arg3 : W5 m ρ c (Proc.devRef .tc main_arg3) = m ((c.tc : Thread nD τ).loc main_arg3) :=
  (stretch1_keep_main_arg3 (W4 m ρ c)).trans (in4_arg3 m ρ c)
theorem in5_arg4 : W5 m ρ c (Proc.devRef .tc main_arg4) = m ((c.tc : Thread nD τ).loc main_arg4) :=
  (stretch1_keep_main_arg4 (W4 m ρ c)).trans (in4_arg4 m ρ c)
theorem in5_factor : W5 m ρ c (Proc.devRef .tc main_v7) = factor m c := (stretch1_keep_main_v7 (W4 m ρ c)).trans (in4_factor m ρ c)

/-! ## At the second region's exit -/

theorem in6_term1 : W6 m ρ c (Proc.devRef .tc main_v19_0) = term1 m c := by
  refine (W6_arr m ρ c 3).trans ((Cheb1Value.final3 (V5 m ρ) c).trans ?_)
  show cheb1 (W5 m ρ c (Proc.devRef .tc main_arg0)) (W5 m ρ c (Proc.devRef .tc main_v18)) (W5 m ρ c (Proc.devRef .tc main_v7)) = _
  rw [in5_arg0 m ρ c, in5_agg0 m ρ c, in5_factor m ρ c]
  rfl
theorem in6_term1Scaled : W6 m ρ c (Proc.devRef .tc main_v19_1) = term1Scaled m c := by
  refine (W6_arr m ρ c 4).trans ((Cheb1Value.final4 (V5 m ρ) c).trans ?_)
  show cheb1Scaled (W5 m ρ c (Proc.devRef .tc main_arg0)) (W5 m ρ c (Proc.devRef .tc main_v18)) (W5 m ρ c (Proc.devRef .tc main_v7)) = _
  rw [in5_arg0 m ρ c, in5_agg0 m ρ c, in5_factor m ρ c]
  rfl
theorem in6_arg0 : W6 m ρ c (Proc.devRef .tc main_arg0) = m ((c.tc : Thread nD τ).loc main_arg0) :=
  (W6_arr m ρ c 0).trans (((dat1 (V5 m ρ) c).arrAt_in 0 rfl _).trans ((A_eq1 (V5 m ρ) c 0).trans (in5_arg0 m ρ c)))
theorem in6_factor : W6 m ρ c (Proc.devRef .tc main_v7) = factor m c :=
  (W6_arr m ρ c 2).trans (((dat1 (V5 m ρ) c).arrAt_in 2 rfl _).trans ((A_eq1 (V5 m ρ) c 2).trans (in5_factor m ρ c)))
theorem in6_arg1 : W6 m ρ c (Proc.devRef .tc main_arg1) = m ((c.tc : Thread nD τ).loc main_arg1) :=
  (W6_of_ne m ρ c main_arg1 (by decide)).trans (in5_arg1 m ρ c)
theorem in6_arg2 : W6 m ρ c (Proc.devRef .tc main_arg2) = m ((c.tc : Thread nD τ).loc main_arg2) :=
  (W6_of_ne m ρ c main_arg2 (by decide)).trans (in5_arg2 m ρ c)
theorem in6_arg3 : W6 m ρ c (Proc.devRef .tc main_arg3) = m ((c.tc : Thread nD τ).loc main_arg3) :=
  (W6_of_ne m ρ c main_arg3 (by decide)).trans (in5_arg3 m ρ c)
theorem in6_arg4 : W6 m ρ c (Proc.devRef .tc main_arg4) = m ((c.tc : Thread nD τ).loc main_arg4) :=
  (W6_of_ne m ρ c main_arg4 (by decide)).trans (in5_arg4 m ρ c)

/-! ## At the third region's entry -/

theorem in7_agg1 : W7 m ρ c (Proc.devRef .tc main_v29) = agg1 m c := by
  refine (stretch2_v29 (W6 m ρ c)).trans ?_
  rw [in6_term1Scaled m ρ c, in6_arg1 m ρ c, in6_arg2 m ρ c]
  rfl
theorem in7_arg0 : W7 m ρ c (Proc.devRef .tc main_arg0) = m ((c.tc : Thread nD τ).loc main_arg0) :=
  (stretch2_keep_main_arg0 (W6 m ρ c)).trans (in6_arg0 m ρ c)
theorem in7_arg3 : W7 m ρ c (Proc.devRef .tc main_arg3) = m ((c.tc : Thread nD τ).loc main_arg3) :=
  (stretch2_keep_main_arg3 (W6 m ρ c)).trans (in6_arg3 m ρ c)
theorem in7_arg4 : W7 m ρ c (Proc.devRef .tc main_arg4) = m ((c.tc : Thread nD τ).loc main_arg4) :=
  (stretch2_keep_main_arg4 (W6 m ρ c)).trans (in6_arg4 m ρ c)
theorem in7_factor : W7 m ρ c (Proc.devRef .tc main_v7) = factor m c := (stretch2_keep_main_v7 (W6 m ρ c)).trans (in6_factor m ρ c)
theorem in7_term1 : W7 m ρ c (Proc.devRef .tc main_v19_0) = term1 m c := (stretch2_keep_main_v19_0 (W6 m ρ c)).trans (in6_term1 m ρ c)

/-! ## The result -/

/-- After the last region the result buffer holds the layer's output of the launched arguments. -/
theorem out_value : W8 m ρ c (Proc.devRef .tc main_v30) = result m c := by
  refine (W8_arr m ρ c 6).trans ((OutputValue.final (V7 m ρ) c).trans ?_)
  show output (W7 m ρ c (Proc.devRef .tc main_arg0)) (W7 m ρ c (Proc.devRef .tc main_v19_0)) (W7 m ρ c (Proc.devRef .tc main_v29)) (W7 m ρ c (Proc.devRef .tc main_v7))
    (W7 m ρ c (Proc.devRef .tc main_arg3)) (W7 m ρ c (Proc.devRef .tc main_arg4)) = _
  rw [in7_arg0 m ρ c, in7_term1 m ρ c, in7_agg1 m ρ c, in7_factor m ρ c, in7_arg3 m ρ c, in7_arg4 m ρ c]
  rfl

/-! ## The reference's result is the same function -/

open Cert.ReferenceIdeal.Read Cert.ReferenceIdeal.Stages in
/-- The reference's result term (its %52), stage by stage, is the layer's output of its arguments. -/
theorem ref_value (x0 : FVec Ideal S100000x64 .f32) (x1 x2 : (⟨S1250000, .i32⟩ : BufTy).Contents (Elt Ideal))
    (x3 : FVec Ideal S192x64 .f32) (x4 : FVec Ideal S64 .f32) :
    val_main_v52 (F := Ideal) x0 x1 x2 x3 x4
      = output x0 (cheb1 x0 (aggregate (scaled x0 (nodeFactor x2)) x1 x2) (nodeFactor x2))
          (aggregate (cheb1Scaled x0 (aggregate (scaled x0 (nodeFactor x2)) x1 x2) (nodeFactor x2)) x1 x2)
          (nodeFactor x2) x3 x4 := by
  rw [stage_output, stage_cheb1, ref_aggregate1, stage_cheb1Scaled, ref_aggregate0, stage_scaled, ref_nodeFactor]

end Cert.KernelIdeal.Result

end
-- ==== Proof.lean ====
/-
  A Chebyshev graph convolution of order three over a graph of 100000 nodes and 1250000 edges, 64 features per node:
  the kernel program against its plain reference, on the extended reals.

  Both programs compute, with d(p) = max(1, in-degree of p)^(-1/2) and A(y) the neighbourhood aggregation of the rows of
  y (rows gathered at the edges' sources and summed at their destinations):

      X0 = x,      X1 = (-1)·(A(X0·d)·d) + X0·0,      X2 = ((-2)·(A(X1·d)·d) + X1·0) - X0,
      out = max( [X0 | X1 | X2] · W + b , 0 ).

  The degree count, the gather and the scatter-add are host operations in both programs, the same ones with the same
  dimension numbers: they are applied to equal arguments and never opened. The kernel program does the three pointwise
  stages and the linear layer in three row-tiled regions (20 blocks of 5000 rows each); the reference does them on whole
  arrays. The stages agree entry by entry with the same operands in the same order. The linear layer is where the two
  differ: the reference multiplies the 192-column join of the three terms by the whole weight table, the kernel adds up
  three 64-column products against the three 64-row blocks of the table. Cutting the 192-term sum into its three blocks
  uses only associativity and commutativity of addition, which hold on the extended reals without any finiteness; so the
  precondition is never used for the values.

  The kernel's idealization rewrote nothing, so the fourth conjunct is trivial. The frames of the two kernel programs
  are the generated ones; the reference's frame is its generated run with the result dropped.
-/
import proofs.«132921_j46153718563236_1_alg».proof.Defs
import proofs.«132921_j46153718563236_1_alg».proof.Proof.Gen.Kernel
import proofs.«132921_j46153718563236_1_alg».proof.Proof.Gen.Kernel.Skeleton
import proofs.«132921_j46153718563236_1_alg».proof.Proof.Gen.Kernel.Launch
import proofs.«132921_j46153718563236_1_alg».proof.Proof.Gen.Kernel.Points
import proofs.«132921_j46153718563236_1_alg».proof.Proof.Gen.Kernel.Frame
import proofs.«132921_j46153718563236_1_alg».proof.Proof.Gen.KernelIdeal
import proofs.«132921_j46153718563236_1_alg».proof.Proof.Gen.KernelIdeal.Skeleton
import proofs.«132921_j46153718563236_1_alg».proof.Proof.Gen.KernelIdeal.Launch
import proofs.«132921_j46153718563236_1_alg».proof.Proof.Gen.KernelIdeal.Points
import proofs.«132921_j46153718563236_1_alg».proof.Proof.Gen.KernelIdeal.Frame
import proofs.«132921_j46153718563236_1_alg».proof.Proof.Gen.ReferenceIdeal
import proofs.«132921_j46153718563236_1_alg».proof.Proof.Gen.Pre_finite_inputs
import proofs.«132921_j46153718563236_1_alg».proof.Proof.Gen.ReferenceIdeal.Run
import proofs.«132921_j46153718563236_1_alg».proof.Proof.Gen.ReferenceIdeal.Read
import proofs.«132921_j46153718563236_1_alg».proof.Proof.KernelRun
import proofs.«132921_j46153718563236_1_alg».proof.Proof.KernelValue
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the layer's output of those arguments: the kernel
    program by walking its segments, the reference by its stages. -/
theorem algebraic : Cert.algebraic_KernelIdeal_ReferenceIdeal := by
  intro m ρ m' ρ' _ hagree
  refine ⟨fun c => Cert.KernelIdeal.Result.result m c, ?_, ?_⟩
  · exact (θ_run Cert.KernelIdeal.defs _ _).mono
      (fun r h c => ⟨(h c).1.trans (Cert.KernelIdeal.Result.out_value m ρ c), (h c).2⟩)
      (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, Cert.KernelIdeal.Result.ref_value, (hagree c).1, (hagree c).2.1,
      (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
